-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x1600000 32) (main_arg2 : FVec F S1600000x32 .f32) (main_arg3 : FVec F S160x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S6400x64 : Shape := ⟨2, ![6400, 64]⟩
abbrev S6400x32 : Shape := ⟨2, ![6400, 32]⟩
abbrev S6400x128 : Shape := ⟨2, ![6400, 128]⟩
abbrev S2000x64 : Shape := ⟨2, ![2000, 64]⟩
abbrev S2000x128 : Shape := ⟨2, ![2000, 128]⟩

abbrev nBuf : Space → Nat
  | .hbm => 56
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S50000x64, .bf16⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .bf16⟩
  | .hbm, ⟨34, _⟩ => ⟨S64x128, .f32⟩
  | .hbm, ⟨35, _⟩ => ⟨S64x128, .bf16⟩
  | .hbm, ⟨36, _⟩ => ⟨S64x128, .f32⟩
  | .hbm, ⟨37, _⟩ => ⟨S64x128, .bf16⟩
  | .hbm, ⟨38, _⟩ => ⟨S32x128, .f32⟩
  | .hbm, ⟨39, _⟩ => ⟨S32x128, .bf16⟩
  | .hbm, ⟨40, _⟩ => ⟨S128x64, .bf16⟩
  | .hbm, ⟨41, _⟩ => ⟨S1x128, .f32⟩
  | .hbm, ⟨42, _⟩ => ⟨S1x64, .f32⟩
  | .hbm, ⟨43, _⟩ => ⟨S1600000x64, .f32⟩
  | .hbm, ⟨44, _⟩ => ⟨S_, .f32⟩
  | .hbm, ⟨45, _⟩ => ⟨S50000x64, .f32⟩
  | .hbm, ⟨46, _⟩ => ⟨S1600000x1, .i32⟩
  | .hbm, ⟨47, _⟩ => ⟨S50000x64, .f32⟩
  | .hbm, ⟨48, _⟩ => ⟨S64x128, .f32⟩
  | .hbm, ⟨49, _⟩ => ⟨S64x128, .bf16⟩
  | .hbm, ⟨50, _⟩ => ⟨S64x128, .f32⟩
  | .hbm, ⟨51, _⟩ => ⟨S64x128, .bf16⟩
  | .hbm, ⟨52, _⟩ => ⟨S128x64, .bf16⟩
  | .hbm, ⟨53, _⟩ => ⟨S1x128, .f32⟩
  | .hbm, ⟨54, _⟩ => ⟨S1x64, .f32⟩
  | .hbm, ⟨55, _⟩ => ⟨S50000x64, .f32⟩
  | .local _ .vmem, ⟨0, _⟩ => ⟨S6400x64, .bf16⟩
  | .local _ .vmem, ⟨1, _⟩ => ⟨S6400x64, .bf16⟩
  | .local _ .vmem, ⟨2, _⟩ => ⟨S6400x64, .bf16⟩
  | .local _ .vmem, ⟨3, _⟩ => ⟨S6400x64, .bf16⟩
  | .local _ .vmem, ⟨4, _⟩ => ⟨S6400x32, .f32⟩
  | .local _ .vmem, ⟨5, _⟩ => ⟨S6400x32, .f32⟩
  | .local _ .vmem, ⟨6, _⟩ => ⟨S64x128, .bf16⟩
  | .local _ .vmem, ⟨7, _⟩ => ⟨S64x128, .bf16⟩
  | .local _ .vmem, ⟨8, _⟩ => ⟨S32x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | .local _ .vmem, ⟨14, _⟩ => ⟨S2000x64, .bf16⟩
  | .local _ .vmem, ⟨15, _⟩ => ⟨S2000x64, .bf16⟩
  | .local _ .vmem, ⟨16, _⟩ => ⟨S2000x64, .f32⟩
  | .local _ .vmem, ⟨17, _⟩ => ⟨S2000x64, .f32⟩
  | .local _ .vmem, ⟨18, _⟩ => ⟨S64x128, .bf16⟩
  | .local _ .vmem, ⟨19, _⟩ => ⟨S64x128, .bf16⟩
  | .local _ .vmem, ⟨20, _⟩ => ⟨S1x128, .f32⟩
  | .local _ .vmem, ⟨21, _⟩ => ⟨S128x64, .bf16⟩
  | .local _ .vmem, ⟨22, _⟩ => ⟨S1x64, .f32⟩
  | .local _ .vmem, ⟨23, _⟩ => ⟨S2000x64, .f32⟩
  | .local _ .vmem, ⟨24, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  shapeCasts_S128_S1x128 : S128.ShapeCasts S1x128
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x32_S6400x32_0_0 : ∀ a, (![0, 0] : Fin 2 → Nat) a + S6400x32.size a ≤ S6400x32.size a
  h_S6400x32 : 0 < S6400x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x128_S2000x128 : S1x128.Broadcasts S2000x128
  broadcasts_S1x64_S2000x64 : S1x64.Broadcasts S2000x64
  gather_S50000x64_S1600000x1_S1600000x64_1_0_n_n_0_1_164_wf : GatherDims.WF S50000x64 S1600000x1 S1600000x64 [1] [0] [] [0] [] 1 ![1, 64]
  dot_S6400x64_S64x128_S6400x128_1_0_0_1_n_n_wf : DotDims.WF S6400x64 S64x128 S6400x128 [1] [0] [0] [1] [] []
  dot_S6400x32_S32x128_S6400x128_1_0_0_1_n_n_wf : DotDims.WF S6400x32 S32x128 S6400x128 [1] [0] [0] [1] [] []
  dot_S6400x128_S128x64_S6400x64_1_0_0_1_n_n_wf : DotDims.WF S6400x128 S128x64 S6400x64 [1] [0] [0] [1] [] []
  scatter_S50000x64_S1600000x1_S1600000x64_1_0_0_1_wf : ScatterDims.WF S50000x64 S1600000x1 S1600000x64 [1] [0] [0] 1
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .bf16 = 32 ∨ (Rect.block (s := S1600000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .bf16 = 32 ∨ (Rect.block (s := S1600000x64) S6400x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S1600000x64.size a
  hwx0_9 : ∀ i : grid0.Coords, EltTy.bits .f32 = 32 ∨ (Rect.block (s := S1600000x64) S6400x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .bf16 = 32 ∨ (Rect.block (s := S50000x64) S2000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v11) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x160, .f32⟩
  | .hbm, ⟨34, _⟩ => ⟨S1600000x128, .f32⟩
  | .hbm, ⟨35, _⟩ => ⟨S1x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S1600000x64, .f32⟩
  | .hbm, ⟨42, _⟩ => ⟨S1x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S50000x64, .f32⟩
  | .hbm, ⟨47, _⟩ => ⟨S1600000x1, .i32⟩
  | .hbm, ⟨48, _⟩ => ⟨S50000x64, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []
  scatter_S50000x64_S1600000x1_S1600000x64_1_0_0_1_wf : ScatterDims.WF S50000x64 S1600000x1 S1600000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«175962_j29343216566653_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.Perceptron.lean ====
/-
  A two-layer perceptron on the extended reals, row by row, with its first layer's input given in pieces.

  For one row e the hidden unit k is  relu(Σ_j x0[e,j]·w0[j,k] + Σ_j x1[e,j]·w1[j,k] (+ Σ_j x2[e,j]·w2[j,k]) + b1[k])  and
  the output f is  Σ_k hidden[e,k]·w3[k,f] + b2[f].  The pieces' weight matrices w0, w1, w2 are consecutive row-blocks of
  one matrix W: a product of the pieces laid side by side against W is the sum of the pieces' products against the blocks,
  because a sum over consecutive index blocks is the sum of the blocks' sums — commutativity and associativity of + only,
  so nothing here asks any entry to be finite.
-/
import Idealize.ShloMosaic.PureOps.Ideal
import Idealize.ShloMosaic.Lib.ValueIdx
import proofs.«175962_j29343216566653_2_alg».proof.Proof.LibSumBlocks

noncomputable section

open scoped BigOperators

namespace Cert.Perceptron

open Idealize.ShloMosaic Idealize.ShloMosaic.ValueIdx

variable {n a b c h o : ℕ}

/-- An array of extended reals over a literal rank-2 shape. -/
abbrev Mat (r s : ℕ) := (⟨2, ![r, s]⟩ : Shape).Idx → EReal

/-- A vector of extended reals over a literal rank-1 shape. -/
abbrev Row (s : ℕ) := (⟨1, ![s]⟩ : Shape).Idx → EReal

/-- Hidden unit k of row e, three input pieces, the bias a [1, h] row. -/
def hidden3 (x0 : Mat n a) (x1 : Mat n b) (x2 : Mat n c) (w0 : Mat a h) (w1 : Mat b h) (w2 : Mat c h) (b1 : Mat 1 h)
    (e : Fin n) (k : Fin h) : EReal :=
  max ((((∑ j : Fin a, x0 (ix2 e j) * w0 (ix2 j k)) + ∑ j : Fin b, x1 (ix2 e j) * w1 (ix2 j k))
    + ∑ j : Fin c, x2 (ix2 e j) * w2 (ix2 j k)) + b1 (ix2 0 k)) 0

/-- Entry (e, f) of the perceptron with three input pieces. -/
def out3 (x0 : Mat n a) (x1 : Mat n b) (x2 : Mat n c) (w0 : Mat a h) (w1 : Mat b h) (w2 : Mat c h) (b1 : Mat 1 h)
    (w3 : Mat h o) (b2 : Mat 1 o) (e : Fin n) (f : Fin o) : EReal :=
  (∑ k : Fin h, hidden3 x0 x1 x2 w0 w1 w2 b1 e k * w3 (ix2 k f)) + b2 (ix2 0 f)

/-- The perceptron with three input pieces, as an array. -/
def mlp3 (x0 : Mat n a) (x1 : Mat n b) (x2 : Mat n c) (w0 : Mat a h) (w1 : Mat b h) (w2 : Mat c h) (b1 : Mat 1 h)
    (w3 : Mat h o) (b2 : Mat 1 o) : Mat n o :=
  fun i => out3 x0 x1 x2 w0 w1 w2 b1 w3 b2 (i 0) (i 1)

/-- Hidden unit k of row e, two input pieces. -/
def hidden2 (x0 : Mat n a) (x1 : Mat n b) (w0 : Mat a h) (w1 : Mat b h) (b1 : Mat 1 h) (e : Fin n) (k : Fin h) : EReal :=
  max (((∑ j : Fin a, x0 (ix2 e j) * w0 (ix2 j k)) + ∑ j : Fin b, x1 (ix2 e j) * w1 (ix2 j k)) + b1 (ix2 0 k)) 0

/-- Entry (e, f) of the perceptron with two input pieces. -/
def out2 (x0 : Mat n a) (x1 : Mat n b) (w0 : Mat a h) (w1 : Mat b h) (b1 : Mat 1 h) (w3 : Mat h o) (b2 : Mat 1 o)
    (e : Fin n) (f : Fin o) : EReal :=
  (∑ k : Fin h, hidden2 x0 x1 w0 w1 b1 e k * w3 (ix2 k f)) + b2 (ix2 0 f)

/-- The perceptron with two input pieces, as an array. -/
def mlp2 (x0 : Mat n a) (x1 : Mat n b) (w0 : Mat a h) (w1 : Mat b h) (b1 : Mat 1 h) (w3 : Mat h o) (b2 : Mat 1 o) : Mat n o :=
  fun i => out2 x0 x1 w0 w1 b1 w3 b2 (i 0) (i 1)

/-- Entry (e, f) of the perceptron on ONE input matrix (the pieces side by side) against ONE first-layer matrix, the
    biases vectors. -/
def outCat {d : ℕ} (xc : Mat n d) (W : Mat d h) (b1 : Row h) (w3 : Mat h o) (b2 : Row o) (e : Fin n) (f : Fin o) : EReal :=
  (∑ k : Fin h, max ((∑ j : Fin d, xc (ix2 e j) * W (ix2 j k)) + b1 (ix1 k)) 0 * w3 (ix2 k f)) + b2 (ix1 f)

/-- THE LAW, three pieces: if the side-by-side input reads piece by piece as x0 | x1 | x2, the pieces' matrices are the
    consecutive row-blocks of W, and the bias rows are the bias vectors, the side-by-side perceptron is the three-piece one. -/
theorem outCat_eq_out3 (xc : Mat n (a + b + c)) (W : Mat (a + b + c) h) (bv1 : Row h) (w3 : Mat h o) (bv2 : Row o)
    (x0 : Mat n a) (x1 : Mat n b) (x2 : Mat n c) (w0 : Mat a h) (w1 : Mat b h) (w2 : Mat c h) (b1 : Mat 1 h) (b2 : Mat 1 o)
    (hx0 : ∀ e (j : Fin a), xc (ix2 e ⟨j.val, by omega⟩) = x0 (ix2 e j))
    (hx1 : ∀ e (j : Fin b), xc (ix2 e ⟨a + j.val, by omega⟩) = x1 (ix2 e j))
    (hx2 : ∀ e (j : Fin c), xc (ix2 e ⟨a + b + j.val, by omega⟩) = x2 (ix2 e j))
    (hw0 : ∀ (j : Fin a) k, W (ix2 ⟨j.val, by omega⟩ k) = w0 (ix2 j k))
    (hw1 : ∀ (j : Fin b) k, W (ix2 ⟨a + j.val, by omega⟩ k) = w1 (ix2 j k))
    (hw2 : ∀ (j : Fin c) k, W (ix2 ⟨a + b + j.val, by omega⟩ k) = w2 (ix2 j k))
    (hb1 : ∀ k, b1 (ix2 0 k) = bv1 (ix1 k)) (hb2 : ∀ f, b2 (ix2 0 f) = bv2 (ix1 f)) (e : Fin n) (f : Fin o) :
    outCat xc W bv1 w3 bv2 e f = out3 x0 x1 x2 w0 w1 w2 b1 w3 b2 e f := by
  unfold outCat out3 hidden3
  rw [hb2]
  refine congrArg (· + bv2 (ix1 f)) (Finset.sum_congr rfl fun k _ => ?_)
  rw [hb1, Idealize.ShloMosaic.SumBlocks.sum_three a b c fun j => xc (ix2 e j) * W (ix2 j k)]
  simp only [hx0, hx1, hx2, hw0, hw1, hw2]

/-- THE LAW, two pieces. -/
theorem outCat_eq_out2 (xc : Mat n (a + b)) (W : Mat (a + b) h) (bv1 : Row h) (w3 : Mat h o) (bv2 : Row o)
    (x0 : Mat n a) (x1 : Mat n b) (w0 : Mat a h) (w1 : Mat b h) (b1 : Mat 1 h) (b2 : Mat 1 o)
    (hx0 : ∀ e (j : Fin a), xc (ix2 e ⟨j.val, by omega⟩) = x0 (ix2 e j))
    (hx1 : ∀ e (j : Fin b), xc (ix2 e ⟨a + j.val, by omega⟩) = x1 (ix2 e j))
    (hw0 : ∀ (j : Fin a) k, W (ix2 ⟨j.val, by omega⟩ k) = w0 (ix2 j k))
    (hw1 : ∀ (j : Fin b) k, W (ix2 ⟨a + j.val, by omega⟩ k) = w1 (ix2 j k))
    (hb1 : ∀ k, b1 (ix2 0 k) = bv1 (ix1 k)) (hb2 : ∀ f, b2 (ix2 0 f) = bv2 (ix1 f)) (e : Fin n) (f : Fin o) :
    outCat xc W bv1 w3 bv2 e f = out2 x0 x1 w0 w1 b1 w3 b2 e f := by
  unfold outCat out2 hidden2
  rw [hb2]
  refine congrArg (· + bv2 (ix1 f)) (Finset.sum_congr rfl fun k _ => ?_)
  rw [hb1, Idealize.ShloMosaic.SumBlocks.sum_two a b fun j => xc (ix2 e j) * W (ix2 j k)]
  simp only [hx0, hx1, hw0, hw1]

/-- Entry (r, f) computed from one set of pieces is entry (e, f) computed from another when row r of each piece of the first
    is row e of the second's and the weights and biases are the same: an entry reads only its own row. -/
theorem out3_congr {n' : ℕ} (x0 : Mat n' a) (x1 : Mat n' b) (x2 : Mat n' c) (A0 : Mat n a) (A1 : Mat n b) (A2 : Mat n c)
    (w0 w0' : Mat a h) (w1 w1' : Mat b h) (w2 w2' : Mat c h) (b1 b1' : Mat 1 h) (w3 w3' : Mat h o) (b2 b2' : Mat 1 o)
    (r : Fin n') (e : Fin n) (f : Fin o)
    (h0 : ∀ j, x0 (ix2 r j) = A0 (ix2 e j)) (h1 : ∀ j, x1 (ix2 r j) = A1 (ix2 e j)) (h2 : ∀ j, x2 (ix2 r j) = A2 (ix2 e j))
    (hw0 : w0 = w0') (hw1 : w1 = w1') (hw2 : w2 = w2') (hb1 : b1 = b1') (hw3 : w3 = w3') (hb2 : b2 = b2') :
    out3 x0 x1 x2 w0 w1 w2 b1 w3 b2 r f = out3 A0 A1 A2 w0' w1' w2' b1' w3' b2' e f := by
  subst hw0 hw1 hw2 hb1 hw3 hb2
  unfold out3 hidden3
  simp only [h0, h1, h2]

/-- The same for two pieces. -/
theorem out2_congr {n' : ℕ} (x0 : Mat n' a) (x1 : Mat n' b) (A0 : Mat n a) (A1 : Mat n b)
    (w0 w0' : Mat a h) (w1 w1' : Mat b h) (b1 b1' : Mat 1 h) (w3 w3' : Mat h o) (b2 b2' : Mat 1 o)
    (r : Fin n') (e : Fin n) (f : Fin o)
    (h0 : ∀ j, x0 (ix2 r j) = A0 (ix2 e j)) (h1 : ∀ j, x1 (ix2 r j) = A1 (ix2 e j))
    (hw0 : w0 = w0') (hw1 : w1 = w1') (hb1 : b1 = b1') (hw3 : w3 = w3') (hb2 : b2 = b2') :
    out2 x0 x1 w0 w1 b1 w3 b2 r f = out2 A0 A1 w0' w1' b1' w3' b2' e f := by
  subst hw0 hw1 hb1 hw3 hb2
  unfold out2 hidden2
  simp only [h0, h1]

end Cert.Perceptron

end
-- ==== Proof.EdgeBody.lean ====
/-
  What the edge kernel's body stores, as arithmetic on its loaded blocks.

  For a block of 6400 edges the body forms, per edge e and hidden unit k,
  relu(Σ_j xr[e,j]·Wa[j,k] + Σ_j xc[e,j]·Wb[j,k] + Σ_j ea[e,j]·Wc[j,k] + b1[k]) and stores Σ_k hidden[e,k]·W2[k,f] + b2[f]:
  the three-piece perceptron of the blocks. The matrix unit starts each product from the zero splat, so each product is the
  plain sum; the changes of float format are the identity on the extended reals; the bias rows are broadcast down the block;
  the relu's threshold is the zero word, the extended real 0.
-/
import proofs.«175962_j29343216566653_2_alg».proof.Proof.Gen.KernelIdeal.Skeleton
import proofs.«175962_j29343216566653_2_alg».proof.Proof.LibDotInnerHost
import proofs.«175962_j29343216566653_2_alg».proof.Proof.Perceptron
import Idealize.ShloMosaic.Lib.Pipeline.Value
import Idealize.ShloMosaic.Lib.ValueLayout

noncomputable section

open scoped BigOperators

namespace Cert.KernelIdeal.EdgeBody

open Cert.KernelIdeal Cert.KernelIdeal.Gen Idealize.ShloMosaic Idealize.ShloMosaic.ValueIdx Idealize.ShloMosaic.DotInner
  Cert.Perceptron

/-- A block of node features against a 64-row block of the first layer's matrix. -/
theorem plain_node_piece : Plain dot_S6400x64_S64x128_S6400x128_1_0_0_1_n_n :=
  plain_record dot_S6400x64_S64x128_S6400x128_1_0_0_1_n_n, S6400x64, S64x128

/-- A block of edge attributes against the 32-row block of the first layer's matrix. -/
theorem plain_attr_piece : Plain dot_S6400x32_S32x128_S6400x128_1_0_0_1_n_n :=
  plain_record dot_S6400x32_S32x128_S6400x128_1_0_0_1_n_n, S6400x32, S32x128

/-- The hidden block against the second layer's matrix. -/
theorem plain_second_layer : Plain dot_S6400x128_S128x64_S6400x64_1_0_0_1_n_n :=
  plain_record dot_S6400x128_S128x64_S6400x64_1_0_0_1_n_n, S6400x128, S128x64

/-- The stored value at (r, f) of the block: entry (r, f) of the three-piece perceptron of the loaded blocks. -/
theorem payload_apply (x0 x1 : Mat 6400 64) (x2 : Mat 6400 32) (x3 x4 : Mat 64 128) (x5 : Mat 32 128) (x6 : Mat 1 128)
    (x7 : Mat 128 64) (x8 : Mat 1 64) (r : Fin 6400) (f : Fin 64) :
    k0_pay1 (F := Ideal) x0 x1 x2 x3 x4 x5 x6 x7 x8 (ix2 r f) = out3 x0 x1 x2 x3 x4 x5 x6 x7 x8 r f := by
  unfold k0_pay1 out3
  simp only [matmul, shapeCast_self, addf_apply]
  rw [plain_second_layer.matmul_zero, broadcastTo_1b_ab_apply]
  refine congrArg (· + x8 (ix2 0 f)) (Finset.sum_congr rfl fun k _ => congrArg (· * x7 (ix2 k f)) ?_)
  unfold hidden3
  simp only [truncf_apply, maximumf_apply, addf_apply, broadcast_apply]
  rw [plain_node_piece.matmul_zero, plain_node_piece.matmul_zero, plain_attr_piece.matmul_zero, broadcastTo_1b_ab_apply]
  simp only [truncf_apply]
  exact congrArg (max _) Ideal.ofBits_zero_f32

end Cert.KernelIdeal.EdgeBody

end
-- ==== Proof.EdgeArray.lean ====
/-
  The edge region's result array, from whatever its operand arrays hold when the region is entered.

  The grid has 250 points; point t reads rows 6400·t … 6400·t + 6399 of the three per-edge arrays and the whole of the six
  weight and bias arrays, and writes back rows 6400·t … of the result. An entry of the perceptron reads only its own row of
  each per-edge array, so what point t writes back is block t of ONE array: the three-piece perceptron of the whole operand
  arrays. The 250 blocks tile the 1 600 000 rows (row e lies in block e / 6400), so the result array ends holding it.
-/
import proofs.«175962_j29343216566653_2_alg».proof.Proof.Gen.KernelIdeal.Frame
import proofs.«175962_j29343216566653_2_alg».proof.Proof.EdgeBody
import Idealize.ShloMosaic.Lib.Pipeline.Value

set_option maxRecDepth 16384

noncomputable section

open scoped BigOperators

namespace Cert.KernelIdeal.EdgeArray

open Cert.KernelIdeal Cert.KernelIdeal.Gen Idealize.ShloMosaic Idealize.ShloMosaic.TcCoe Idealize.SL.Sem
  Idealize.ShloMosaic.ValueIdx Cert.Perceptron
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the per-edge windows and the result move one block of rows per point, the
    weight and bias windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each input block read where the point's rows say -/

/-- The gathered source rows: row r of block t is row 6400·t + r of the array. -/
theorem rows0 (c : Dev nD) (t : Fin cfg0.N) (r : Fin 6400) (e : Fin 1600000) (he : e.val = t.val * 6400 + r.val) (j : Fin 64) :
    (iblk0 V c 0 t : Mat 6400 64) (ix2 r j) = (V c main_v11 : Mat 1600000 64) (ix2 e j) := by
  obtain ⟨⟨h0, h1⟩, -⟩ := idx_facts t
  unfold iblk0
  rw [View.read_apply]
  show V c main_v11 _ = V c main_v11 _
  congr 1
  funext a
  apply Fin.ext
  match a with
  | ⟨0, _⟩ => show win0_0.index t 0 * 6400 + 1 * r.val = e.val; rw [h0, he]; omega
  | ⟨1, _⟩ => show win0_0.index t 1 * 64 + 1 * j.val = j.val; rw [h1]; omega

/-- The gathered target rows. -/
theorem rows1 (c : Dev nD) (t : Fin cfg0.N) (r : Fin 6400) (e : Fin 1600000) (he : e.val = t.val * 6400 + r.val) (j : Fin 64) :
    (iblk0 V c 1 t : Mat 6400 64) (ix2 r j) = (V c main_v18 : Mat 1600000 64) (ix2 e j) := by
  obtain ⟨-, ⟨h0, h1⟩, -⟩ := idx_facts t
  unfold iblk0
  rw [View.read_apply]
  show V c main_v18 _ = V c main_v18 _
  congr 1
  funext a
  apply Fin.ext
  match a with
  | ⟨0, _⟩ => show win0_1.index t 0 * 6400 + 1 * r.val = e.val; rw [h0, he]; omega
  | ⟨1, _⟩ => show win0_1.index t 1 * 64 + 1 * j.val = j.val; rw [h1]; omega

/-- The edge attributes. -/
theorem rows2 (c : Dev nD) (t : Fin cfg0.N) (r : Fin 6400) (e : Fin 1600000) (he : e.val = t.val * 6400 + r.val) (j : Fin 32) :
    (iblk0 V c 2 t : Mat 6400 32) (ix2 r j) = (V c main_arg2 : Mat 1600000 32) (ix2 e j) := by
  obtain ⟨-, -, ⟨h0, h1⟩, -⟩ := idx_facts t
  unfold iblk0
  rw [View.read_apply]
  show V c main_arg2 _ = V c main_arg2 _
  congr 1
  funext a
  apply Fin.ext
  match a with
  | ⟨0, _⟩ => show win0_2.index t 0 * 6400 + 1 * r.val = e.val; rw [h0, he]; omega
  | ⟨1, _⟩ => show win0_2.index t 1 * 32 + 1 * j.val = j.val; rw [h1]; omega

/-- The first row-block of the first layer's matrix: the one block is the array. -/
theorem whole3 (c : Dev nD) (t : Fin cfg0.N) : (iblk0 V c 3 t : Mat 64 128) = (V c main_v20 : Mat 64 128) := by
  obtain ⟨-, -, -, ⟨h0, h1⟩, -⟩ := idx_facts t
  funext y
  unfold iblk0
  rw [View.read_apply]
  show V c main_v20 _ = V c main_v20 _
  congr 1
  funext a
  apply Fin.ext
  match a with
  | ⟨0, _⟩ => show win0_3.index t 0 * 64 + 1 * (y 0).val = (y 0).val; rw [h0]; omega
  | ⟨1, _⟩ => show win0_3.index t 1 * 128 + 1 * (y 1).val = (y 1).val; rw [h1]; omega

/-- The second row-block. -/
theorem whole4 (c : Dev nD) (t : Fin cfg0.N) : (iblk0 V c 4 t : Mat 64 128) = (V c main_v22 : Mat 64 128) := by
  obtain ⟨-, -, -, -, ⟨h0, h1⟩, -⟩ := idx_facts t
  funext y
  unfold iblk0
  rw [View.read_apply]
  show V c main_v22 _ = V c main_v22 _
  congr 1
  funext a
  apply Fin.ext
  match a with
  | ⟨0, _⟩ => show win0_4.index t 0 * 64 + 1 * (y 0).val = (y 0).val; rw [h0]; omega
  | ⟨1, _⟩ => show win0_4.index t 1 * 128 + 1 * (y 1).val = (y 1).val; rw [h1]; omega

/-- The third row-block. -/
theorem whole5 (c : Dev nD) (t : Fin cfg0.N) : (iblk0 V c 5 t : Mat 32 128) = (V c main_v24 : Mat 32 128) := by
  obtain ⟨-, -, -, -, -, ⟨h0, h1⟩, -⟩ := idx_facts t
  funext y
  unfold iblk0
  rw [View.read_apply]
  show V c main_v24 _ = V c main_v24 _
  congr 1
  funext a
  apply Fin.ext
  match a with
  | ⟨0, _⟩ => show win0_5.index t 0 * 32 + 1 * (y 0).val = (y 0).val; rw [h0]; omega
  | ⟨1, _⟩ => show win0_5.index t 1 * 128 + 1 * (y 1).val = (y 1).val; rw [h1]; omega

/-- The first layer's bias row. -/
theorem whole6 (c : Dev nD) (t : Fin cfg0.N) : (iblk0 V c 6 t : Mat 1 128) = (V c main_v26 : Mat 1 128) := by
  obtain ⟨-, -, -, -, -, -, ⟨h0, h1⟩, -⟩ := idx_facts t
  funext y
  unfold iblk0
  rw [View.read_apply]
  show V c main_v26 _ = V c main_v26 _
  congr 1
  funext a
  apply Fin.ext
  match a with
  | ⟨0, _⟩ => show win0_6.index t 0 * 1 + 1 * (y 0).val = (y 0).val; rw [h0]; omega
  | ⟨1, _⟩ => show win0_6.index t 1 * 128 + 1 * (y 1).val = (y 1).val; rw [h1]; omega

/-- The second layer's matrix. -/
theorem whole7 (c : Dev nD) (t : Fin cfg0.N) : (iblk0 V c 7 t : Mat 128 64) = (V c main_v25 : Mat 128 64) := by
  obtain ⟨-, -, -, -, -, -, -, ⟨h0, h1⟩, -⟩ := idx_facts t
  funext y
  unfold iblk0
  rw [View.read_apply]
  show V c main_v25 _ = V c main_v25 _
  congr 1
  funext a
  apply Fin.ext
  match a with
  | ⟨0, _⟩ => show win0_7.index t 0 * 128 + 1 * (y 0).val = (y 0).val; rw [h0]; omega
  | ⟨1, _⟩ => show win0_7.index t 1 * 64 + 1 * (y 1).val = (y 1).val; rw [h1]; omega

/-- The second layer's bias row. -/
theorem whole8 (c : Dev nD) (t : Fin cfg0.N) : (iblk0 V c 8 t : Mat 1 64) = (V c main_v27 : Mat 1 64) := by
  obtain ⟨-, -, -, -, -, -, -, -, ⟨h0, h1⟩, -⟩ := idx_facts t
  funext y
  unfold iblk0
  rw [View.read_apply]
  show V c main_v27 _ = V c main_v27 _
  congr 1
  funext a
  apply Fin.ext
  match a with
  | ⟨0, _⟩ => show win0_8.index t 0 * 1 + 1 * (y 0).val = (y 0).val; rw [h0]; omega
  | ⟨1, _⟩ => show win0_8.index t 1 * 64 + 1 * (y 1).val = (y 1).val; rw [h1]; omega

/-! ## The result array -/

/-- What the result array ends holding: the three-piece perceptron of the operand arrays as the region finds them. -/
abbrev edges (c : Dev nD) : Mat 1600000 64 :=
  mlp3 (V c main_v11) (V c main_v18) (V c main_arg2) (V c main_v20) (V c main_v22) (V c main_v24) (V c main_v26)
    (V c main_v25) (V c main_v27)

/-- WHAT POINT t WRITES BACK is block t of that array. -/
theorem flushed_eq (c : Dev nD) (t : Fin cfg0.N) :
    (dat0 V c).flushed 9 t = ((cfg0.win 9).blk t).view.read (Elt Ideal) (edges V c) := by
  show (cfg0.win 9).cut (grid0.coords t) ((dat0 V c).after 9 t) = _
  rw [after0_9]
  unfold out0_9
  rw [View.canon_unit_zero hz]
  simp only [View.ld_unit_zero (S := S6400x64) hz, View.ld_unit_zero (S := S6400x32) hz, View.ld_unit_zero (S := S64x128) hz,
    View.ld_unit_zero (S := S32x128) hz, View.ld_unit_zero (S := S1x128) hz, View.ld_unit_zero (S := S128x64) hz,
    View.ld_unit_zero (S := S1x64) hz]
  have hN : cfg0.N = 250 := N_0
  have ht := t.isLt
  obtain ⟨-, -, -, -, -, -, -, -, -, ⟨h0, h1⟩⟩ := idx_facts t
  funext y
  obtain ⟨r, f, rfl⟩ : ∃ (r : Fin 6400) (f : Fin 64), y = ix2 r f := ⟨y 0, y 1, eq_ix2 y⟩
  have hr := r.isLt
  have hemb : ((cfg0.win 9).blk t).view.emb (ix2 r f) = ix2 (⟨t.val * 6400 + r.val, by omega⟩ : Fin 1600000) f := by
    funext a
    apply Fin.ext
    match a with
    | ⟨0, _⟩ => show win0_9.index t 0 * 6400 + 1 * r.val = t.val * 6400 + r.val; rw [h0]; omega
    | ⟨1, _⟩ => show win0_9.index t 1 * 64 + 1 * f.val = f.val; rw [h1]; omega
  rw [View.read_apply, hemb]
  refine (EdgeBody.payload_apply (iblk0 V c 0 t) (iblk0 V c 1 t) (iblk0 V c 2 t) (iblk0 V c 3 t) (iblk0 V c 4 t)
    (iblk0 V c 5 t) (iblk0 V c 6 t) (iblk0 V c 7 t) (iblk0 V c 8 t) r f).trans ?_
  exact out3_congr (iblk0 V c 0 t) (iblk0 V c 1 t) (iblk0 V c 2 t) (V c main_v11) (V c main_v18) (V c main_arg2)
    (iblk0 V c 3 t) (V c main_v20) (iblk0 V c 4 t) (V c main_v22) (iblk0 V c 5 t) (V c main_v24)
    (iblk0 V c 6 t) (V c main_v26) (iblk0 V c 7 t) (V c main_v25) (iblk0 V c 8 t) (V c main_v27)
    r ⟨t.val * 6400 + r.val, by omega⟩ f
    (rows0 V c t r _ rfl) (rows1 V c t r _ rfl) (rows2 V c t r _ rfl)
    (whole3 V c t) (whole4 V c t) (whole5 V c t) (whole6 V c t) (whole7 V c t) (whole8 V c t)

/-- An index of the result array is in point t's block iff each coordinate is in the block's range on its axis. -/
theorem mem_blk (t : Fin cfg0.N) (i : S1600000x64.Idx) :
    i ∈ ((cfg0.win 9).blk t).view.set ↔ ∀ a : Fin 2, win0_9.index t a * S6400x64.size a ≤ (i a).val
      ∧ (i a).val < win0_9.index t a * S6400x64.size a + S6400x64.size a := by
  show i ∈ ((View.whole main_v28).slice (win0_9.rect t)).set ↔ _
  rw [View.set_slice_whole, Rect.mem_set_unit]
  exact Iff.rfl

/-- Row e of the result lies in the block of point e / 6400, which is written back. -/
theorem cover (i : S1600000x64.Idx) :
    ∃ t : Fin cfg0.N, (cfg0.win 9).flush t = true ∧ i ∈ ((cfg0.win 9).blk t).view.set := by
  have hN : cfg0.N = 250 := N_0
  have hi0 : (i 0).val < 1600000 := (i 0).isLt
  have hi1 : (i 1).val < 64 := (i 1).isLt
  refine ⟨⟨(i 0).val / 6400, by omega⟩, flush0_9 _, ?_⟩
  obtain ⟨-, -, -, -, -, -, -, -, -, ⟨h0, h1⟩⟩ := idx_facts ⟨(i 0).val / 6400, by omega⟩
  rw [mem_blk]
  intro a
  match a with
  | ⟨0, _⟩ =>
    show win0_9.index ⟨(i 0).val / 6400, _⟩ 0 * 6400 ≤ (i 0).val ∧ (i 0).val < win0_9.index ⟨(i 0).val / 6400, _⟩ 0 * 6400 + 6400
    rw [h0]
    show (i 0).val / 6400 * 6400 ≤ (i 0).val ∧ (i 0).val < (i 0).val / 6400 * 6400 + 6400
    omega
  | ⟨1, _⟩ =>
    show win0_9.index ⟨(i 0).val / 6400, _⟩ 1 * 64 ≤ (i 1).val ∧ (i 1).val < win0_9.index ⟨(i 0).val / 6400, _⟩ 1 * 64 + 64
    rw [h1]
    omega

/-- THE RESULT ARRAY after the region: the three-piece perceptron of the operand arrays. -/
theorem final (c : Dev nD) : (dat0 V c).arrAt 9 cfg0.N = edges V c :=
  (dat0 V c).arrAt_eq_of_cover 9 (edges V c) (fun t _ => flushed_eq V c t) cover

end Cert.KernelIdeal.EdgeArray

end
-- ==== Proof.NodeBody.lean ====
/-
  What the node kernel's body stores, as arithmetic on its loaded blocks.

  For a block of 2000 nodes the body forms, per node v and hidden unit k,
  relu(Σ_j x[v,j]·Wa[j,k] + Σ_j agg[v,j]·Wb[j,k] + b1[k]) and stores Σ_k hidden[v,k]·W2[k,f] + b2[f]: the two-piece
  perceptron of the blocks, each product the plain sum from the zero splat, the changes of float format the identity on
  the extended reals, the bias rows broadcast down the block, the relu's threshold the extended real 0.
-/
import proofs.«175962_j29343216566653_2_alg».proof.Proof.Gen.KernelIdeal.Skeleton
import proofs.«175962_j29343216566653_2_alg».proof.Proof.LibDotInnerHost
import proofs.«175962_j29343216566653_2_alg».proof.Proof.Perceptron
import Idealize.ShloMosaic.Lib.Pipeline.Value
import Idealize.ShloMosaic.Lib.ValueLayout

noncomputable section

open scoped BigOperators

namespace Cert.KernelIdeal.NodeBody

open Cert.KernelIdeal Cert.KernelIdeal.Gen Idealize.ShloMosaic Idealize.ShloMosaic.ValueIdx Idealize.ShloMosaic.DotInner
  Cert.Perceptron

/-- A block of node features, or of aggregated messages, against a 64-row block of the first layer's matrix. -/
theorem plain_piece : Plain dot_S2000x64_S64x128_S2000x128_1_0_0_1_n_n :=
  plain_record dot_S2000x64_S64x128_S2000x128_1_0_0_1_n_n, S2000x64, S64x128

/-- The hidden block against the second layer's matrix. -/
theorem plain_second_layer : Plain dot_S2000x128_S128x64_S2000x64_1_0_0_1_n_n :=
  plain_record dot_S2000x128_S128x64_S2000x64_1_0_0_1_n_n, S2000x128, S128x64

/-- The stored value at (r, f) of the block: entry (r, f) of the two-piece perceptron of the loaded blocks. -/
theorem payload_apply (x0 x1 : Mat 2000 64) (x2 x3 : Mat 64 128) (x4 : Mat 1 128) (x5 : Mat 128 64) (x6 : Mat 1 64)
    (r : Fin 2000) (f : Fin 64) :
    k1_pay1 (F := Ideal) x0 x1 x2 x3 x4 x5 x6 (ix2 r f) = out2 x0 x1 x2 x3 x4 x5 x6 r f := by
  unfold k1_pay1 out2
  simp only [matmul, shapeCast_self, addf_apply]
  rw [plain_second_layer.matmul_zero, broadcastTo_1b_ab_apply]
  refine congrArg (· + x6 (ix2 0 f)) (Finset.sum_congr rfl fun k _ => congrArg (· * x5 (ix2 k f)) ?_)
  unfold hidden2
  simp only [truncf_apply, maximumf_apply, addf_apply, broadcast_apply]
  rw [plain_piece.matmul_zero, plain_piece.matmul_zero, broadcastTo_1b_ab_apply]
  simp only [truncf_apply]
  exact congrArg (max _) Ideal.ofBits_zero_f32

end Cert.KernelIdeal.NodeBody

end
-- ==== Proof.NodeArray.lean ====
/-
  The node region's result array, from whatever its operand arrays hold when the region is entered.

  The grid has 25 points; point t reads rows 2000·t … 2000·t + 1999 of the node features and of the aggregated messages and
  the whole of the five weight and bias arrays, and writes back rows 2000·t … of the result. An entry of the perceptron reads
  only its own row, so what point t writes back is block t of ONE array: the two-piece perceptron of the whole operand
  arrays. The 25 blocks tile the 50 000 rows (row v lies in block v / 2000), so the result array ends holding it.
-/
import proofs.«175962_j29343216566653_2_alg».proof.Proof.Gen.KernelIdeal.Frame
import proofs.«175962_j29343216566653_2_alg».proof.Proof.NodeBody
import Idealize.ShloMosaic.Lib.Pipeline.Value

set_option maxRecDepth 16384

noncomputable section

open scoped BigOperators

namespace Cert.KernelIdeal.NodeArray

open Cert.KernelIdeal Cert.KernelIdeal.Gen Idealize.ShloMosaic Idealize.ShloMosaic.TcCoe Idealize.SL.Sem
  Idealize.ShloMosaic.ValueIdx Cert.Perceptron
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the per-node windows and the result move one block of rows per point, the
    weight and bias windows stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-! ## Each input block read where the point's rows say -/

/-- The node features: row r of block t is row 2000·t + r of the array. -/
theorem rows0 (c : Dev nD) (t : Fin cfg1.N) (r : Fin 2000) (e : Fin 50000) (he : e.val = t.val * 2000 + r.val) (j : Fin 64) :
    (iblk1 V c 0 t : Mat 2000 64) (ix2 r j) = (V c main_v4 : Mat 50000 64) (ix2 e j) := by
  obtain ⟨⟨h0, h1⟩, -⟩ := idx_facts t
  unfold iblk1
  rw [View.read_apply]
  show V c main_v4 _ = V c main_v4 _
  congr 1
  funext a
  apply Fin.ext
  match a with
  | ⟨0, _⟩ => show win1_0.index t 0 * 2000 + 1 * r.val = e.val; rw [h0, he]; omega
  | ⟨1, _⟩ => show win1_0.index t 1 * 64 + 1 * j.val = j.val; rw [h1]; omega

/-- The aggregated messages. -/
theorem rows1 (c : Dev nD) (t : Fin cfg1.N) (r : Fin 2000) (e : Fin 50000) (he : e.val = t.val * 2000 + r.val) (j : Fin 64) :
    (iblk1 V c 1 t : Mat 2000 64) (ix2 r j) = (V c main_v31 : Mat 50000 64) (ix2 e j) := by
  obtain ⟨-, ⟨h0, h1⟩, -⟩ := idx_facts t
  unfold iblk1
  rw [View.read_apply]
  show V c main_v31 _ = V c main_v31 _
  congr 1
  funext a
  apply Fin.ext
  match a with
  | ⟨0, _⟩ => show win1_1.index t 0 * 2000 + 1 * r.val = e.val; rw [h0, he]; omega
  | ⟨1, _⟩ => show win1_1.index t 1 * 64 + 1 * j.val = j.val; rw [h1]; omega

/-- The first row-block of the first layer's matrix: the one block is the array. -/
theorem whole2 (c : Dev nD) (t : Fin cfg1.N) : (iblk1 V c 2 t : Mat 64 128) = (V c main_v33 : Mat 64 128) := by
  obtain ⟨-, -, ⟨h0, h1⟩, -⟩ := idx_facts t
  funext y
  unfold iblk1
  rw [View.read_apply]
  show V c main_v33 _ = V c main_v33 _
  congr 1
  funext a
  apply Fin.ext
  match a with
  | ⟨0, _⟩ => show win1_2.index t 0 * 64 + 1 * (y 0).val = (y 0).val; rw [h0]; omega
  | ⟨1, _⟩ => show win1_2.index t 1 * 128 + 1 * (y 1).val = (y 1).val; rw [h1]; omega

/-- The second row-block. -/
theorem whole3 (c : Dev nD) (t : Fin cfg1.N) : (iblk1 V c 3 t : Mat 64 128) = (V c main_v35 : Mat 64 128) := by
  obtain ⟨-, -, -, ⟨h0, h1⟩, -⟩ := idx_facts t
  funext y
  unfold iblk1
  rw [View.read_apply]
  show V c main_v35 _ = V c main_v35 _
  congr 1
  funext a
  apply Fin.ext
  match a with
  | ⟨0, _⟩ => show win1_3.index t 0 * 64 + 1 * (y 0).val = (y 0).val; rw [h0]; omega
  | ⟨1, _⟩ => show win1_3.index t 1 * 128 + 1 * (y 1).val = (y 1).val; rw [h1]; omega

/-- The first layer's bias row. -/
theorem whole4 (c : Dev nD) (t : Fin cfg1.N) : (iblk1 V c 4 t : Mat 1 128) = (V c main_v37 : Mat 1 128) := by
  obtain ⟨-, -, -, -, ⟨h0, h1⟩, -⟩ := idx_facts t
  funext y
  unfold iblk1
  rw [View.read_apply]
  show V c main_v37 _ = V c main_v37 _
  congr 1
  funext a
  apply Fin.ext
  match a with
  | ⟨0, _⟩ => show win1_4.index t 0 * 1 + 1 * (y 0).val = (y 0).val; rw [h0]; omega
  | ⟨1, _⟩ => show win1_4.index t 1 * 128 + 1 * (y 1).val = (y 1).val; rw [h1]; omega

/-- The second layer's matrix. -/
theorem whole5 (c : Dev nD) (t : Fin cfg1.N) : (iblk1 V c 5 t : Mat 128 64) = (V c main_v36 : Mat 128 64) := by
  obtain ⟨-, -, -, -, -, ⟨h0, h1⟩, -⟩ := idx_facts t
  funext y
  unfold iblk1
  rw [View.read_apply]
  show V c main_v36 _ = V c main_v36 _
  congr 1
  funext a
  apply Fin.ext
  match a with
  | ⟨0, _⟩ => show win1_5.index t 0 * 128 + 1 * (y 0).val = (y 0).val; rw [h0]; omega
  | ⟨1, _⟩ => show win1_5.index t 1 * 64 + 1 * (y 1).val = (y 1).val; rw [h1]; omega

/-- The second layer's bias row. -/
theorem whole6 (c : Dev nD) (t : Fin cfg1.N) : (iblk1 V c 6 t : Mat 1 64) = (V c main_v38 : Mat 1 64) := by
  obtain ⟨-, -, -, -, -, -, ⟨h0, h1⟩, -⟩ := idx_facts t
  funext y
  unfold iblk1
  rw [View.read_apply]
  show V c main_v38 _ = V c main_v38 _
  congr 1
  funext a
  apply Fin.ext
  match a with
  | ⟨0, _⟩ => show win1_6.index t 0 * 1 + 1 * (y 0).val = (y 0).val; rw [h0]; omega
  | ⟨1, _⟩ => show win1_6.index t 1 * 64 + 1 * (y 1).val = (y 1).val; rw [h1]; omega

/-! ## The result array -/

/-- What the result array ends holding: the two-piece perceptron of the operand arrays as the region finds them. -/
abbrev nodes (c : Dev nD) : Mat 50000 64 :=
  mlp2 (V c main_v4) (V c main_v31) (V c main_v33) (V c main_v35) (V c main_v37) (V c main_v36) (V c main_v38)

/-- WHAT POINT t WRITES BACK is block t of that array. -/
theorem flushed_eq (c : Dev nD) (t : Fin cfg1.N) :
    (dat1 V c).flushed 7 t = ((cfg1.win 7).blk t).view.read (Elt Ideal) (nodes V c) := by
  show (cfg1.win 7).cut (grid1.coords t) ((dat1 V c).after 7 t) = _
  rw [after1_7]
  unfold out1_7
  rw [View.canon_unit_zero hz]
  simp only [View.ld_unit_zero (S := S2000x64) hz, View.ld_unit_zero (S := S64x128) hz,
    View.ld_unit_zero (S := S1x128) hz, View.ld_unit_zero (S := S128x64) hz, View.ld_unit_zero (S := S1x64) hz]
  have hN : cfg1.N = 25 := N_1
  have ht := t.isLt
  obtain ⟨-, -, -, -, -, -, -, ⟨h0, h1⟩⟩ := idx_facts t
  funext y
  obtain ⟨r, f, rfl⟩ : ∃ (r : Fin 2000) (f : Fin 64), y = ix2 r f := ⟨y 0, y 1, eq_ix2 y⟩
  have hr := r.isLt
  have hemb : ((cfg1.win 7).blk t).view.emb (ix2 r f) = ix2 (⟨t.val * 2000 + r.val, by omega⟩ : Fin 50000) f := by
    funext a
    apply Fin.ext
    match a with
    | ⟨0, _⟩ => show win1_7.index t 0 * 2000 + 1 * r.val = t.val * 2000 + r.val; rw [h0]; omega
    | ⟨1, _⟩ => show win1_7.index t 1 * 64 + 1 * f.val = f.val; rw [h1]; omega
  rw [View.read_apply, hemb]
  refine (NodeBody.payload_apply (iblk1 V c 0 t) (iblk1 V c 1 t) (iblk1 V c 2 t) (iblk1 V c 3 t) (iblk1 V c 4 t)
    (iblk1 V c 5 t) (iblk1 V c 6 t) r f).trans ?_
  exact out2_congr (iblk1 V c 0 t) (iblk1 V c 1 t) (V c main_v4) (V c main_v31)
    (iblk1 V c 2 t) (V c main_v33) (iblk1 V c 3 t) (V c main_v35) (iblk1 V c 4 t) (V c main_v37)
    (iblk1 V c 5 t) (V c main_v36) (iblk1 V c 6 t) (V c main_v38)
    r ⟨t.val * 2000 + r.val, by omega⟩ f
    (rows0 V c t r _ rfl) (rows1 V c t r _ rfl)
    (whole2 V c t) (whole3 V c t) (whole4 V c t) (whole5 V c t) (whole6 V c t)

/-- An index of the result array is in point t's block iff each coordinate is in the block's range on its axis. -/
theorem mem_blk (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v39).slice (win1_7.rect t)).set ↔ _
  rw [View.set_slice_whole, Rect.mem_set_unit]
  exact Iff.rfl

/-- Row v of the result lies in the block of point v / 2000, which is written back. -/
theorem cover (i : S50000x64.Idx) :
    ∃ t : Fin cfg1.N, (cfg1.win 7).flush t = true ∧ i ∈ ((cfg1.win 7).blk t).view.set := by
  have hN : cfg1.N = 25 := N_1
  have hi0 : (i 0).val < 50000 := (i 0).isLt
  have hi1 : (i 1).val < 64 := (i 1).isLt
  refine ⟨⟨(i 0).val / 2000, by omega⟩, flush1_7 _, ?_⟩
  obtain ⟨-, -, -, -, -, -, -, ⟨h0, h1⟩⟩ := idx_facts ⟨(i 0).val / 2000, by omega⟩
  rw [mem_blk]
  intro a
  match a with
  | ⟨0, _⟩ =>
    show win1_7.index ⟨(i 0).val / 2000, _⟩ 0 * 2000 ≤ (i 0).val ∧ (i 0).val < win1_7.index ⟨(i 0).val / 2000, _⟩ 0 * 2000 + 2000
    rw [h0]
    show (i 0).val / 2000 * 2000 ≤ (i 0).val ∧ (i 0).val < (i 0).val / 2000 * 2000 + 2000
    omega
  | ⟨1, _⟩ =>
    show win1_7.index ⟨(i 0).val / 2000, _⟩ 1 * 64 ≤ (i 1).val ∧ (i 1).val < win1_7.index ⟨(i 0).val / 2000, _⟩ 1 * 64 + 64
    rw [h1]
    omega

/-- THE RESULT ARRAY after the region: the two-piece perceptron of the operand arrays. -/
theorem final (c : Dev nD) : (dat1 V c).arrAt 7 cfg1.N = nodes V c :=
  (dat1 V c).arrAt_eq_of_cover 7 (nodes V c) (fun t _ => flushed_eq V c t) cover

end Cert.KernelIdeal.NodeArray

end
-- ==== Proof.KernelRun.lean ====
/-
  The kernel program's run with its two result arrays named.

  @main is a stretch of host operations, the edge region, a second stretch, the node region. The run leaves every unscoped
  buffer at the contents the segments' fold ends with. Read at the two result buffers: the node region's result is what its
  pipeline leaves (its blocks' write-backs folded); the edge region's result is written by no later segment, so it is still
  what the edge pipeline left. The arguments end as launched.
-/
import proofs.«175962_j29343216566653_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The edge region's result buffer after the whole run is what the edge pipeline left in it: the node region has no
    window on it and no operation of the second host stretch writes it. -/
theorem last_edges (c : Dev nD) :
    W4 m ρ c (Proc.devRef .tc main_v28) = (dat0 (V1 m ρ) c).arrAt 9 cfg0.N :=
  calc W4 m ρ c (Proc.devRef .tc main_v28)
    _ = W3 m ρ c (Proc.devRef .tc main_v28) := W4_of_ne m ρ c main_v28 (by decide)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 9 cfg0.N := W2_arr m ρ c 9

/-- The node region's result buffer after the whole run is what the node pipeline left in it. -/
theorem last_nodes (c : Dev nD) :
    W4 m ρ c (Proc.devRef .tc main_v39) = (dat1 (V3 m ρ) c).arrAt 7 cfg1.N :=
  W4_arr m ρ c 7

-- the launch theorem's implicit arguments are found by unifying its conclusion with this one, which takes unfolding
-- plain definitions in a metavariable's type
set_option backward.isDefEq.respectTransparency.types false in
/-- THE RUN: every weakly fair execution of @main terminates, nothing faulting, with the two result buffers at the
    last boundary's contents and the argument arrays as launched. -/
theorem run_named : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.Glue.lean ====
/-
  The host-side pieces both programs share, named once.

  An edge list is a [2, E] array of node indices; row 0 holds each edge's source, row 1 its target. Both programs wrap a
  negative index by adding the node count, gather the node-feature rows at the wrapped indices, and sum the per-edge
  messages into their source node's row (indexed by the UNWRAPPED source row, as both programs do). None of these is
  opened in this certificate: the two programs apply the same function to arrays shown equal.
-/
import proofs.«175962_j29343216566653_2_alg».proof.KernelIdeal
import proofs.«175962_j29343216566653_2_alg».proof.Proof.Gen.KernelIdeal
import proofs.«175962_j29343216566653_2_alg».proof.Proof.Perceptron
import Idealize.ShloMosaic.Lib.ValueLayout

noncomputable section

namespace Cert.KernelIdeal.Glue

open Cert.KernelIdeal Cert.KernelIdeal.Facts₀ Idealize.ShloMosaic Idealize.ShloMosaic.ValueIdx Cert.Perceptron

/-- An array of 32-bit integers. -/
abbrev Ints (S : Shape) := (⟨S, .i32⟩ : BufTy).Contents (Elt Ideal)

/-- Row 0 of the edge list: each edge's source node. -/
def sources (ei : Ints S2x1600000) : Ints S1600000 :=
  shapeCast _ (extractStridedSlice S1x1600000 ![0, 0] ei slices_S2x1600000_S1x1600000_0_0) shapeCasts_S1x1600000_S1600000

/-- Row 1 of the edge list: each edge's target node. -/
def targets (ei : Ints S2x1600000) : Ints S1600000 :=
  shapeCast _ (extractStridedSlice S1x1600000 ![1, 0] ei slices_S2x1600000_S1x1600000_1_0) shapeCasts_S1x1600000_S1600000

/-- A vector of node indices with the negative ones wrapped by the node count, as a column of start indices. -/
def wrapped (v : Ints S1600000) : Ints S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- The node-feature rows at a column of start indices. -/
def rowsAt (x : Mat 50000 64) (idx : Ints S1600000x1) : Mat 1600000 64 :=
  Host.gather gather_S50000x64_S1600000x1_S1600000x64_1_0_n_n_0_1_164 x idx

/-- The per-edge messages summed into the row of the node the index vector names, from zero. -/
def segmentSum (v : Ints S1600000) (msgs : Mat 1600000 64) : Mat 50000 64 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 v) msgs

/-! ## The weight matrices' row-blocks and the biases as rows -/

/-- Rows 0 … 63 of the edge perceptron's first-layer matrix: the block that meets the source node's features. -/
def edgeBlock0 (W : Mat 160 128) : Mat 64 128 := extractStridedSlice S64x128 ![0, 0] W slices_S160x128_S64x128_0_0
/-- Rows 64 … 127: the block that meets the target node's features. -/
def edgeBlock1 (W : Mat 160 128) : Mat 64 128 := extractStridedSlice S64x128 ![64, 0] W slices_S160x128_S64x128_64_0
/-- Rows 128 … 159: the block that meets the edge attributes. -/
def edgeBlock2 (W : Mat 160 128) : Mat 32 128 := extractStridedSlice S32x128 ![128, 0] W slices_S160x128_S32x128_128_0
/-- Rows 0 … 63 of the node perceptron's first-layer matrix: the block that meets the node's own features. -/
def nodeBlock0 (W : Mat 128 128) : Mat 64 128 := extractStridedSlice S64x128 ![0, 0] W slices_S128x128_S64x128_0_0
/-- Rows 64 … 127: the block that meets the aggregated messages. -/
def nodeBlock1 (W : Mat 128 128) : Mat 64 128 := extractStridedSlice S64x128 ![64, 0] W slices_S128x128_S64x128_64_0
/-- A 128-vector as a one-row matrix. -/
def row128 (b : Row 128) : Mat 1 128 := shapeCast S1x128 b shapeCasts_S128_S1x128
/-- A 64-vector as a one-row matrix. -/
def row64 (b : Row 64) : Mat 1 64 := shapeCast S1x64 b shapeCasts_S64_S1x64

theorem edgeBlock0_apply (W : Mat 160 128) (j : Fin 64) (k : Fin 128) :
    edgeBlock0 W (ix2 j k) = W (ix2 ⟨j.val, by omega⟩ k) :=
  slice2_axis0_apply 0 W _ j k ⟨j.val, by omega⟩ (Nat.zero_add _).symm
theorem edgeBlock1_apply (W : Mat 160 128) (j : Fin 64) (k : Fin 128) :
    edgeBlock1 W (ix2 j k) = W (ix2 ⟨64 + j.val, by omega⟩ k) :=
  slice2_axis0_apply 64 W _ j k ⟨64 + j.val, by omega⟩ rfl
theorem edgeBlock2_apply (W : Mat 160 128) (j : Fin 32) (k : Fin 128) :
    edgeBlock2 W (ix2 j k) = W (ix2 ⟨64 + 64 + j.val, by omega⟩ k) :=
  slice2_axis0_apply 128 W _ j k ⟨64 + 64 + j.val, by omega⟩ rfl
theorem nodeBlock0_apply (W : Mat 128 128) (j : Fin 64) (k : Fin 128) :
    nodeBlock0 W (ix2 j k) = W (ix2 ⟨j.val, by omega⟩ k) :=
  slice2_axis0_apply 0 W _ j k ⟨j.val, by omega⟩ (Nat.zero_add _).symm
theorem nodeBlock1_apply (W : Mat 128 128) (j : Fin 64) (k : Fin 128) :
    nodeBlock1 W (ix2 j k) = W (ix2 ⟨64 + j.val, by omega⟩ k) :=
  slice2_axis0_apply 64 W _ j k ⟨64 + j.val, by omega⟩ rfl
theorem row128_apply (b : Row 128) (k : Fin 128) : row128 b (ix2 0 k) = b (ix1 k) := shapeCast_a_1a_apply b _ 0 k
theorem row64_apply (b : Row 64) (k : Fin 64) : row64 b (ix2 0 k) = b (ix1 k) := shapeCast_a_1a_apply b _ 0 k

/-! ## The two results as functions of the arguments -/

/-- The per-edge messages: the three-piece perceptron of the gathered source rows, the gathered target rows and the edge
    attributes, against the three row-blocks of its first-layer matrix. -/
def edgesOf (x : Mat 50000 64) (ei : Ints S2x1600000) (ea : Mat 1600000 32) (W1 : Mat 160 128) (b1 : Row 128)
    (W2 : Mat 128 64) (b2 : Row 64) : Mat 1600000 64 :=
  mlp3 (rowsAt x (wrapped (sources ei))) (rowsAt x (wrapped (targets ei))) ea (edgeBlock0 W1) (edgeBlock1 W1) (edgeBlock2 W1)
    (row128 b1) W2 (row64 b2)

/-- The node embeddings: the two-piece perceptron of the node features and the messages summed by source node. -/
def nodesOf (x : Mat 50000 64) (ei : Ints S2x1600000) (msgs : Mat 1600000 64) (Wn1 : Mat 128 128) (bn1 : Row 128)
    (Wn2 : Mat 128 64) (bn2 : Row 64) : Mat 50000 64 :=
  mlp2 x (segmentSum (sources ei) msgs) (nodeBlock0 Wn1) (nodeBlock1 Wn1) (row128 bn1) Wn2 (row64 bn2)

end Cert.KernelIdeal.Glue

end
-- ==== Proof.KernelValue.lean ====
/-
  The kernel program's two result arrays as functions of its arguments.

  Entering the edge region, the host stretch before it has left in the region's operand arrays: the node-feature rows
  gathered at the (wrapped) source and target indices, the edge attributes untouched, the three row-blocks of the first
  layer's matrix, the second layer's matrix, and the two biases as rows (each change of float format the identity on the
  extended reals). So the edge region's result is the three-piece perceptron of those: edgesOf.
  Entering the node region, the second host stretch has summed that result by source node, cut the node perceptron's
  first-layer matrix in two row-blocks and laid its biases as rows; the node features are the ones the first stretch
  converted. So the node region's result is the two-piece perceptron of those: nodesOf, of the edge result.
-/
import proofs.«175962_j29343216566653_2_alg».proof.Proof.EdgeArray
import proofs.«175962_j29343216566653_2_alg».proof.Proof.NodeArray
import proofs.«175962_j29343216566653_2_alg».proof.Proof.KernelRun
import proofs.«175962_j29343216566653_2_alg».proof.Proof.Glue
import Idealize.ShloMosaic.Lib.StableHlo.Run

set_option maxRecDepth 16384

noncomputable section

namespace Cert.KernelIdeal.Results

open Cert.KernelIdeal Cert.KernelIdeal.Gen Cert.KernelIdeal.Glue Idealize.ShloMosaic Idealize.ShloMosaic.TcCoe Idealize.SL.Sem
  Idealize.ShloMosaic.StableHlo Cert.Perceptron

variable (m : (ℓ : Loc nD τ sig) → Buf (Elt Ideal) ℓ) (ρ : Dev nD → PrngReg)

/-! ## The arguments, as arrays -/

abbrev argX (c : Dev nD) : Mat 50000 64 := m ((c : Thread nD τ).loc main_arg0)
abbrev argEI (c : Dev nD) : Ints S2x1600000 := m ((c : Thread nD τ).loc main_arg1)
abbrev argEA (c : Dev nD) : Mat 1600000 32 := m ((c : Thread nD τ).loc main_arg2)
abbrev argWe1 (c : Dev nD) : Mat 160 128 := m ((c : Thread nD τ).loc main_arg3)
abbrev argBe1 (c : Dev nD) : Row 128 := m ((c : Thread nD τ).loc main_arg4)
abbrev argWe2 (c : Dev nD) : Mat 128 64 := m ((c : Thread nD τ).loc main_arg5)
abbrev argBe2 (c : Dev nD) : Row 64 := m ((c : Thread nD τ).loc main_arg6)
abbrev argWn1 (c : Dev nD) : Mat 128 128 := m ((c : Thread nD τ).loc main_arg7)
abbrev argBn1 (c : Dev nD) : Row 128 := m ((c : Thread nD τ).loc main_arg8)
abbrev argWn2 (c : Dev nD) : Mat 128 64 := m ((c : Thread nD τ).loc main_arg9)
abbrev argBn2 (c : Dev nD) : Row 64 := m ((c : Thread nD τ).loc main_arg10)

/-! ## What the edge region finds in its operand arrays -/

theorem in_v11 (c : Dev nD) : (V1 m ρ c main_v11 : Mat 1600000 64) = rowsAt (argX m c) (wrapped (sources (argEI m c))) := by
  show StableHlo.after hostOps0 (W0 m ρ c) (Proc.devRef .tc main_v11) = _
  after_results_simp
  rfl
theorem in_v18 (c : Dev nD) : (V1 m ρ c main_v18 : Mat 1600000 64) = rowsAt (argX m c) (wrapped (targets (argEI m c))) := by
  show StableHlo.after hostOps0 (W0 m ρ c) (Proc.devRef .tc main_v18) = _
  after_results_simp
  rfl
theorem in_arg2 (c : Dev nD) : (V1 m ρ c main_arg2 : Mat 1600000 32) = argEA m c := by
  show StableHlo.after hostOps0 (W0 m ρ c) (Proc.devRef .tc main_arg2) = _
  after_results_simp
theorem in_v20 (c : Dev nD) : (V1 m ρ c main_v20 : Mat 64 128) = edgeBlock0 (argWe1 m c) := by
  show StableHlo.after hostOps0 (W0 m ρ c) (Proc.devRef .tc main_v20) = _
  after_results_simp
  rfl
theorem in_v22 (c : Dev nD) : (V1 m ρ c main_v22 : Mat 64 128) = edgeBlock1 (argWe1 m c) := by
  show StableHlo.after hostOps0 (W0 m ρ c) (Proc.devRef .tc main_v22) = _
  after_results_simp
  rfl
theorem in_v24 (c : Dev nD) : (V1 m ρ c main_v24 : Mat 32 128) = edgeBlock2 (argWe1 m c) := by
  show StableHlo.after hostOps0 (W0 m ρ c) (Proc.devRef .tc main_v24) = _
  after_results_simp
  rfl
theorem in_v26 (c : Dev nD) : (V1 m ρ c main_v26 : Mat 1 128) = row128 (argBe1 m c) := by
  show StableHlo.after hostOps0 (W0 m ρ c) (Proc.devRef .tc main_v26) = _
  after_results_simp
  rfl
theorem in_v25 (c : Dev nD) : (V1 m ρ c main_v25 : Mat 128 64) = argWe2 m c := by
  show StableHlo.after hostOps0 (W0 m ρ c) (Proc.devRef .tc main_v25) = _
  after_results_simp
  rfl
theorem in_v27 (c : Dev nD) : (V1 m ρ c main_v27 : Mat 1 64) = row64 (argBe2 m c) := by
  show StableHlo.after hostOps0 (W0 m ρ c) (Proc.devRef .tc main_v27) = _
  after_results_simp
  rfl

/-- The edge region's result array: the per-edge messages. -/
theorem edges_final (c : Dev nD) : (dat0 (V1 m ρ) c).arrAt 9 cfg0.N
    = edgesOf (argX m c) (argEI m c) (argEA m c) (argWe1 m c) (argBe1 m c) (argWe2 m c) (argBe2 m c) := by
  refine (EdgeArray.final (V1 m ρ) c).trans ?_
  show mlp3 (V1 m ρ c main_v11) (V1 m ρ c main_v18) (V1 m ρ c main_arg2) (V1 m ρ c main_v20) (V1 m ρ c main_v22)
    (V1 m ρ c main_v24) (V1 m ρ c main_v26) (V1 m ρ c main_v25) (V1 m ρ c main_v27) = _
  rw [in_v11 m ρ c, in_v18 m ρ c, in_arg2 m ρ c, in_v20 m ρ c, in_v22 m ρ c, in_v24 m ρ c, in_v26 m ρ c, in_v25 m ρ c,
    in_v27 m ρ c]
  rfl

/-! ## Between the regions: what the second host stretch reads -/

/-- The edge result is still in its buffer. -/
theorem mid_edges (c : Dev nD) : W2 m ρ c (Proc.devRef .tc main_v28)
    = edgesOf (argX m c) (argEI m c) (argEA m c) (argWe1 m c) (argBe1 m c) (argWe2 m c) (argBe2 m c) :=
  (W2_arr m ρ c 9).trans (edges_final m ρ c)

/-- The source-node vector the first stretch cut out of the edge list. -/
theorem mid_sources (c : Dev nD) : (W2 m ρ c (Proc.devRef .tc main_v1) : Ints S1600000) = sources (argEI m c) := by
  rw [W2_of_ne m ρ c main_v1 (by decide)]
  show StableHlo.after hostOps0 (W0 m ρ c) (Proc.devRef .tc main_v1) = _
  after_results_simp
  rfl
/-- The node features the first stretch converted. -/
theorem mid_x (c : Dev nD) : (W2 m ρ c (Proc.devRef .tc main_v4) : Mat 50000 64) = argX m c := by
  rw [W2_of_ne m ρ c main_v4 (by decide)]
  show StableHlo.after hostOps0 (W0 m ρ c) (Proc.devRef .tc main_v4) = _
  after_results_simp
  rfl
theorem mid_arg7 (c : Dev nD) : (W2 m ρ c (Proc.devRef .tc main_arg7) : Mat 128 128) = argWn1 m c := by
  rw [W2_of_ne m ρ c main_arg7 (by decide)]
  show StableHlo.after hostOps0 (W0 m ρ c) (Proc.devRef .tc main_arg7) = _
  after_results_simp
theorem mid_arg8 (c : Dev nD) : (W2 m ρ c (Proc.devRef .tc main_arg8) : Row 128) = argBn1 m c := by
  rw [W2_of_ne m ρ c main_arg8 (by decide)]
  show StableHlo.after hostOps0 (W0 m ρ c) (Proc.devRef .tc main_arg8) = _
  after_results_simp
theorem mid_arg9 (c : Dev nD) : (W2 m ρ c (Proc.devRef .tc main_arg9) : Mat 128 64) = argWn2 m c := by
  rw [W2_of_ne m ρ c main_arg9 (by decide)]
  show StableHlo.after hostOps0 (W0 m ρ c) (Proc.devRef .tc main_arg9) = _
  after_results_simp
theorem mid_arg10 (c : Dev nD) : (W2 m ρ c (Proc.devRef .tc main_arg10) : Row 64) = argBn2 m c := by
  rw [W2_of_ne m ρ c main_arg10 (by decide)]
  show StableHlo.after hostOps0 (W0 m ρ c) (Proc.devRef .tc main_arg10) = _
  after_results_simp

/-! ## What the node region finds in its operand arrays -/

theorem in3_v4 (c : Dev nD) : (V3 m ρ c main_v4 : Mat 50000 64) = argX m c := by
  show StableHlo.after hostOps1 (W2 m ρ c) (Proc.devRef .tc main_v4) = _
  after_results_simp
  exact mid_x m ρ c
theorem in3_v31 (c : Dev nD) : (V3 m ρ c main_v31 : Mat 50000 64) = segmentSum (sources (argEI m c))
    (edgesOf (argX m c) (argEI m c) (argEA m c) (argWe1 m c) (argBe1 m c) (argWe2 m c) (argBe2 m c)) := by
  show StableHlo.after hostOps1 (W2 m ρ c) (Proc.devRef .tc main_v31) = _
  after_results_simp
  rw [mid_edges m ρ c, mid_sources m ρ c]
  rfl
theorem in3_v33 (c : Dev nD) : (V3 m ρ c main_v33 : Mat 64 128) = nodeBlock0 (argWn1 m c) := by
  show StableHlo.after hostOps1 (W2 m ρ c) (Proc.devRef .tc main_v33) = _
  after_results_simp
  rw [mid_arg7 m ρ c]
  rfl
theorem in3_v35 (c : Dev nD) : (V3 m ρ c main_v35 : Mat 64 128) = nodeBlock1 (argWn1 m c) := by
  show StableHlo.after hostOps1 (W2 m ρ c) (Proc.devRef .tc main_v35) = _
  after_results_simp
  rw [mid_arg7 m ρ c]
  rfl
theorem in3_v37 (c : Dev nD) : (V3 m ρ c main_v37 : Mat 1 128) = row128 (argBn1 m c) := by
  show StableHlo.after hostOps1 (W2 m ρ c) (Proc.devRef .tc main_v37) = _
  after_results_simp
  rw [mid_arg8 m ρ c]
  rfl
theorem in3_v36 (c : Dev nD) : (V3 m ρ c main_v36 : Mat 128 64) = argWn2 m c := by
  show StableHlo.after hostOps1 (W2 m ρ c) (Proc.devRef .tc main_v36) = _
  after_results_simp
  rw [mid_arg9 m ρ c]
  rfl
theorem in3_v38 (c : Dev nD) : (V3 m ρ c main_v38 : Mat 1 64) = row64 (argBn2 m c) := by
  show StableHlo.after hostOps1 (W2 m ρ c) (Proc.devRef .tc main_v38) = _
  after_results_simp
  rw [mid_arg10 m ρ c]
  rfl

/-- The node region's result array: the node embeddings. -/
theorem nodes_final (c : Dev nD) : (dat1 (V3 m ρ) c).arrAt 7 cfg1.N
    = nodesOf (argX m c) (argEI m c)
        (edgesOf (argX m c) (argEI m c) (argEA m c) (argWe1 m c) (argBe1 m c) (argWe2 m c) (argBe2 m c))
        (argWn1 m c) (argBn1 m c) (argWn2 m c) (argBn2 m c) := by
  refine (NodeArray.final (V3 m ρ) c).trans ?_
  show mlp2 (V3 m ρ c main_v4) (V3 m ρ c main_v31) (V3 m ρ c main_v33) (V3 m ρ c main_v35) (V3 m ρ c main_v37)
    (V3 m ρ c main_v36) (V3 m ρ c main_v38) = _
  rw [in3_v4 m ρ c, in3_v31 m ρ c, in3_v33 m ρ c, in3_v35 m ρ c, in3_v37 m ρ c, in3_v36 m ρ c, in3_v38 m ρ c]
  rfl

/-! ## The run -/

/-- THE KERNEL PROGRAM'S RUN, READ: the two result arrays at their functions of the arguments, the arguments as launched. -/
theorem run : θ_run defs (onTc (τ := τ) (main (F := Ideal))) ⟨m, fun _ => 0, ρ⟩ (fun r => ∀ c : Dev nD,
      r.2.mem ((c.tc : Thread nD τ).loc main_v28)
        = edgesOf (argX m c) (argEI m c) (argEA m c) (argWe1 m c) (argBe1 m c) (argWe2 m c) (argBe2 m c)
      ∧ r.2.mem ((c.tc : Thread nD τ).loc main_v39)
        = nodesOf (argX m c) (argEI m c)
            (edgesOf (argX m c) (argEI m c) (argEA m c) (argWe1 m c) (argBe1 m c) (argWe2 m c) (argBe2 m c))
            (argWn1 m c) (argBn1 m c) (argWn2 m c) (argBn2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c).1.trans ((Run.last_edges m ρ c).trans (edges_final m ρ c)),
       (h c).2.1.trans ((Run.last_nodes m ρ c).trans (nodes_final m ρ c)),
       (h c).2.2⟩)
    (Run.run_named m ρ)

end Cert.KernelIdeal.Results

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«175962_j29343216566653_2_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.RefValue.lean ====
/-
  The reference program's two stages, as perceptrons over pieces.

  The reference lays the gathered source rows, the gathered target rows and the edge attributes side by side into one
  [E, 160] matrix and takes ONE product against the [160, 128] first-layer matrix; the kernel program takes three products
  against that matrix's three row-blocks and adds them. Entry by entry the one product is a sum over 160 = 64 + 64 + 32
  consecutive indices, which is the sum of the three blocks' sums; the side-by-side matrix read in a block is the piece;
  the biases are the same numbers broadcast; relu is max with the extended real 0 on both sides. The same holds of the node
  stage with 128 = 64 + 64. No entry is asked to be finite.
-/
import proofs.«175962_j29343216566653_2_alg».proof.ReferenceIdeal
import proofs.«175962_j29343216566653_2_alg».proof.Proof.Gen.ReferenceIdeal
import proofs.«175962_j29343216566653_2_alg».proof.Proof.LibDenseLayer
import proofs.«175962_j29343216566653_2_alg».proof.Proof.Glue
import Idealize.ShloMosaic.Lib.Pipeline.Value

noncomputable section

open scoped BigOperators

namespace Cert.ReferenceIdeal.RefValue

open Cert.ReferenceIdeal Cert.ReferenceIdeal.Facts₀ Idealize.ShloMosaic Idealize.ShloMosaic.ValueIdx
  Idealize.ShloMosaic.DotInner Idealize.ShloMosaic.DenseLayer Cert.Perceptron
open Cert.KernelIdeal.Glue (edgeBlock0 edgeBlock1 edgeBlock2 nodeBlock0 nodeBlock1 row128 row64 edgeBlock0_apply edgeBlock1_apply
  edgeBlock2_apply nodeBlock0_apply nodeBlock1_apply row128_apply row64_apply)

/-! ## The four products' dimension numbers -/

theorem plain_edge_first : Plain dot_S1600000x160_S160x128_S1600000x128_1_0_0_1_n_n :=
  plain_record dot_S1600000x160_S160x128_S1600000x128_1_0_0_1_n_n, S1600000x160, S160x128
theorem plain_edge_second : Plain dot_S1600000x128_S128x64_S1600000x64_1_0_0_1_n_n :=
  plain_record dot_S1600000x128_S128x64_S1600000x64_1_0_0_1_n_n, S1600000x128, S128x64
theorem plain_node_first : Plain dot_S50000x128_S128x128_S50000x128_1_0_0_1_n_n :=
  plain_record dot_S50000x128_S128x128_S50000x128_1_0_0_1_n_n, S50000x128, S128x128
theorem plain_node_second : Plain dot_S50000x128_S128x64_S50000x64_1_0_0_1_n_n :=
  plain_record dot_S50000x128_S128x64_S50000x64_1_0_0_1_n_n, S50000x128, S128x64

/-! ## The edge stage -/

/-- The three per-edge pieces side by side. -/
def besideE (xr xc : Mat 1600000 64) (ea : Mat 1600000 32) : Mat 1600000 160 :=
  concatenate S1600000x160 1 [⟨S1600000x64, xr⟩, ⟨S1600000x64, xc⟩, ⟨S1600000x32, ea⟩]
    concatenates_S1600000x64_S1600000x64_S1600000x32_S1600000x160_d1

/-- Columns 0 … 63 are the first piece. -/
theorem besideE_0 (xr xc : Mat 1600000 64) (ea : Mat 1600000 32) (e : Fin 1600000) (j : Fin 64) :
    besideE xr xc ea (ix2 e ⟨j.val, by omega⟩) = xr (ix2 e j) :=
  concatenate_apply_piece (1 : Fin S1600000x160.rank) _ _ (ix2 e ⟨j.val, by omega⟩) 0 (by simp) S1600000x64 xr rfl rfl 0 rfl
    (ix2 e j) (fun b hb => by
      match b with
      | ⟨0, _⟩ => rfl
      | ⟨1, _⟩ => exact absurd rfl hb) (Nat.zero_add _)

/-- Columns 64 … 127 are the second piece. -/
theorem besideE_1 (xr xc : Mat 1600000 64) (ea : Mat 1600000 32) (e : Fin 1600000) (j : Fin 64) :
    besideE xr xc ea (ix2 e ⟨64 + j.val, by omega⟩) = xc (ix2 e j) :=
  concatenate_apply_piece (1 : Fin S1600000x160.rank) _ _ (ix2 e ⟨64 + j.val, by omega⟩) 1 (by simp) S1600000x64 xc rfl rfl 64 rfl
    (ix2 e j) (fun b hb => by
      match b with
      | ⟨0, _⟩ => rfl
      | ⟨1, _⟩ => exact absurd rfl hb) rfl

/-- Columns 128 … 159 are the third piece. -/
theorem besideE_2 (xr xc : Mat 1600000 64) (ea : Mat 1600000 32) (e : Fin 1600000) (j : Fin 32) :
    besideE xr xc ea (ix2 e ⟨64 + 64 + j.val, by omega⟩) = ea (ix2 e j) :=
  concatenate_apply_piece (1 : Fin S1600000x160.rank) _ _ (ix2 e ⟨64 + 64 + j.val, by omega⟩) 2 (by simp) S1600000x32 ea rfl rfl 128 rfl
    (ix2 e j) (fun b hb => by
      match b with
      | ⟨0, _⟩ => rfl
      | ⟨1, _⟩ => exact absurd rfl hb) rfl

/-- The reference's edge stage on given gathered rows: Linear, relu, Linear. -/
def edgesRef (xr xc : Mat 1600000 64) (ea : Mat 1600000 32) (W1 : Mat 160 128) (b1 : Row 128) (W2 : Mat 128 64) (b2 : Row 64) :
    Mat 1600000 64 :=
  addf (F := Ideal) (Host.dotGeneral (F := Ideal) (φ₁ := .f32) (φ₂ := .f32) dot_S1600000x128_S128x64_S1600000x64_1_0_0_1_n_n none
      (maximumf (F := Ideal) (addf (F := Ideal) (Host.dotGeneral (F := Ideal) (φ₁ := .f32) (φ₂ := .f32) dot_S1600000x160_S160x128_S1600000x128_1_0_0_1_n_n none
            (besideE xr xc ea) W1)
          (broadcastInDim S1600000x128 ![0, 1] bcast_S1x128_S1600000x128_0_1 (broadcastInDim S1x128 ![1] bcast_S128_S1x128_1 b1)))
        (broadcastInDim S1600000x128 ![] bcast_S_S1600000x128 (constant (F := Ideal) S_ .f32 0x00000000#32))) W2)
    (broadcastInDim S1600000x64 ![0, 1] bcast_S1x64_S1600000x64_0_1 (broadcastInDim S1x64 ![1] bcast_S64_S1x64_1 b2))

/-- Entry (e, f) of the edge stage: the side-by-side perceptron. -/
theorem edgesRef_apply (xr xc : Mat 1600000 64) (ea : Mat 1600000 32) (W1 : Mat 160 128) (b1 : Row 128) (W2 : Mat 128 64)
    (b2 : Row 64) (e : Fin 1600000) (f : Fin 64) :
    edgesRef xr xc ea W1 b1 W2 b2 (ix2 e f) = outCat (besideE xr xc ea) W1 b1 W2 b2 e f := by
  unfold edgesRef outCat
  rw [dense_apply plain_edge_second]
  refine congrArg (· + b2 (ix1 f)) (Finset.sum_congr rfl fun k _ => congrArg (· * W2 (ix2 k f)) ?_)
  rw [maximumf_apply, dense_apply plain_edge_first, zero_splat_apply]

/-- THE EDGE STAGE is the three-piece perceptron against the first-layer matrix's three row-blocks. -/
theorem edgesRef_eq (xr xc : Mat 1600000 64) (ea : Mat 1600000 32) (W1 : Mat 160 128) (b1 : Row 128) (W2 : Mat 128 64)
    (b2 : Row 64) :
    edgesRef xr xc ea W1 b1 W2 b2
      = mlp3 xr xc ea (edgeBlock0 W1) (edgeBlock1 W1) (edgeBlock2 W1) (row128 b1) W2 (row64 b2) := by
  funext i
  obtain ⟨e, f, rfl⟩ : ∃ (e : Fin 1600000) (f : Fin 64), i = ix2 e f := ⟨i 0, i 1, eq_ix2 i⟩
  refine (edgesRef_apply xr xc ea W1 b1 W2 b2 e f).trans ?_
  exact outCat_eq_out3 (a := 64) (b := 64) (c := 32) (besideE xr xc ea) W1 b1 W2 b2 xr xc ea
    (edgeBlock0 W1) (edgeBlock1 W1) (edgeBlock2 W1) (row128 b1) (row64 b2)
    (besideE_0 xr xc ea) (besideE_1 xr xc ea) (besideE_2 xr xc ea)
    (fun j k => (edgeBlock0_apply W1 j k).symm) (fun j k => (edgeBlock1_apply W1 j k).symm)
    (fun j k => (edgeBlock2_apply W1 j k).symm) (row128_apply b1) (row64_apply b2) e f

/-! ## The node stage -/

/-- The node features and the aggregated messages side by side. -/
def besideN (x agg : Mat 50000 64) : Mat 50000 128 :=
  concatenate S50000x128 1 [⟨S50000x64, x⟩, ⟨S50000x64, agg⟩] concatenates_S50000x64_S50000x64_S50000x128_d1

/-- Columns 0 … 63 are the node features. -/
theorem besideN_0 (x agg : Mat 50000 64) (e : Fin 50000) (j : Fin 64) :
    besideN x agg (ix2 e ⟨j.val, by omega⟩) = x (ix2 e j) :=
  concatenate_apply_piece (1 : Fin S50000x128.rank) _ _ (ix2 e ⟨j.val, by omega⟩) 0 (by simp) S50000x64 x rfl rfl 0 rfl
    (ix2 e j) (fun b hb => by
      match b with
      | ⟨0, _⟩ => rfl
      | ⟨1, _⟩ => exact absurd rfl hb) (Nat.zero_add _)

/-- Columns 64 … 127 are the aggregated messages. -/
theorem besideN_1 (x agg : Mat 50000 64) (e : Fin 50000) (j : Fin 64) :
    besideN x agg (ix2 e ⟨64 + j.val, by omega⟩) = agg (ix2 e j) :=
  concatenate_apply_piece (1 : Fin S50000x128.rank) _ _ (ix2 e ⟨64 + j.val, by omega⟩) 1 (by simp) S50000x64 agg rfl rfl 64 rfl
    (ix2 e j) (fun b hb => by
      match b with
      | ⟨0, _⟩ => rfl
      | ⟨1, _⟩ => exact absurd rfl hb) rfl

/-- The reference's node stage on given aggregated messages: Linear, relu, Linear. -/
def nodesRef (x agg : Mat 50000 64) (Wn1 : Mat 128 128) (bn1 : Row 128) (Wn2 : Mat 128 64) (bn2 : Row 64) : Mat 50000 64 :=
  addf (F := Ideal) (Host.dotGeneral (F := Ideal) (φ₁ := .f32) (φ₂ := .f32) dot_S50000x128_S128x64_S50000x64_1_0_0_1_n_n none
      (maximumf (F := Ideal) (addf (F := Ideal) (Host.dotGeneral (F := Ideal) (φ₁ := .f32) (φ₂ := .f32) dot_S50000x128_S128x128_S50000x128_1_0_0_1_n_n none
            (besideN x agg) Wn1)
          (broadcastInDim S50000x128 ![0, 1] bcast_S1x128_S50000x128_0_1 (broadcastInDim S1x128 ![1] bcast_S128_S1x128_1 bn1)))
        (broadcastInDim S50000x128 ![] bcast_S_S50000x128 (constant (F := Ideal) S_ .f32 0x00000000#32))) Wn2)
    (broadcastInDim S50000x64 ![0, 1] bcast_S1x64_S50000x64_0_1 (broadcastInDim S1x64 ![1] bcast_S64_S1x64_1 bn2))

/-- Entry (v, f) of the node stage: the side-by-side perceptron. -/
theorem nodesRef_apply (x agg : Mat 50000 64) (Wn1 : Mat 128 128) (bn1 : Row 128) (Wn2 : Mat 128 64) (bn2 : Row 64)
    (e : Fin 50000) (f : Fin 64) :
    nodesRef x agg Wn1 bn1 Wn2 bn2 (ix2 e f) = outCat (besideN x agg) Wn1 bn1 Wn2 bn2 e f := by
  unfold nodesRef outCat
  rw [dense_apply plain_node_second]
  refine congrArg (· + bn2 (ix1 f)) (Finset.sum_congr rfl fun k _ => congrArg (· * Wn2 (ix2 k f)) ?_)
  rw [maximumf_apply, dense_apply plain_node_first, zero_splat_apply]

/-- THE NODE STAGE is the two-piece perceptron against the first-layer matrix's two row-blocks. -/
theorem nodesRef_eq (x agg : Mat 50000 64) (Wn1 : Mat 128 128) (bn1 : Row 128) (Wn2 : Mat 128 64) (bn2 : Row 64) :
    nodesRef x agg Wn1 bn1 Wn2 bn2 = mlp2 x agg (nodeBlock0 Wn1) (nodeBlock1 Wn1) (row128 bn1) Wn2 (row64 bn2) := by
  funext i
  obtain ⟨e, f, rfl⟩ : ∃ (e : Fin 50000) (f : Fin 64), i = ix2 e f := ⟨i 0, i 1, eq_ix2 i⟩
  refine (nodesRef_apply x agg Wn1 bn1 Wn2 bn2 e f).trans ?_
  exact outCat_eq_out2 (a := 64) (b := 64) (besideN x agg) Wn1 bn1 Wn2 bn2 x agg
    (nodeBlock0 Wn1) (nodeBlock1 Wn1) (row128 bn1) (row64 bn2)
    (besideN_0 x agg) (besideN_1 x agg)
    (fun j k => (nodeBlock0_apply Wn1 j k).symm) (fun j k => (nodeBlock1_apply Wn1 j k).symm)
    (row128_apply bn1) (row64_apply bn2) e f

end Cert.ReferenceIdeal.RefValue

end
-- ==== Proof.lean ====
/-
  A message-passing layer of a graph network: per edge, a two-layer perceptron of (source features | target features | edge
  attributes); the messages summed into their source node; per node, a two-layer perceptron of (features | summed messages).

  The kernel program computes each perceptron's first layer piece by piece — one product per input piece against the
  matching row-block of the first-layer matrix, the products added — in two pipelined regions over blocks of rows; the
  reference lays the pieces side by side and takes one product against the whole matrix. On the extended reals, where every
  change of float format is the identity and every product is its exact sum, the two are equal entry by entry: a sum over
  64 + 64 + 32 (or 64 + 64) consecutive contraction indices is the sum of the blocks' sums, by commutativity and
  associativity of + alone, so the inputs' finiteness is never used. The row gathers and the sum by source node are the
  same host operations on both sides, applied to equal arrays, and are carried unopened.

  Both programs run without a fault and leave their arguments as launched. The ideal pass rewrote nothing, so the
  idealized kernel is the kernel's own text read on the extended reals.
-/
import proofs.«175962_j29343216566653_2_alg».proof.Defs
import proofs.«175962_j29343216566653_2_alg».proof.Proof.Gen.Kernel
import proofs.«175962_j29343216566653_2_alg».proof.Proof.Gen.Kernel.Skeleton
import proofs.«175962_j29343216566653_2_alg».proof.Proof.Gen.Kernel.Launch
import proofs.«175962_j29343216566653_2_alg».proof.Proof.Gen.Kernel.Points
import proofs.«175962_j29343216566653_2_alg».proof.Proof.Gen.Kernel.Frame
import proofs.«175962_j29343216566653_2_alg».proof.Proof.Gen.KernelIdeal
import proofs.«175962_j29343216566653_2_alg».proof.Proof.Gen.KernelIdeal.Skeleton
import proofs.«175962_j29343216566653_2_alg».proof.Proof.Gen.KernelIdeal.Launch
import proofs.«175962_j29343216566653_2_alg».proof.Proof.Gen.KernelIdeal.Points
import proofs.«175962_j29343216566653_2_alg».proof.Proof.Gen.KernelIdeal.Frame
import proofs.«175962_j29343216566653_2_alg».proof.Proof.Gen.ReferenceIdeal
import proofs.«175962_j29343216566653_2_alg».proof.Proof.Gen.ReferenceIdeal.Run
import proofs.«175962_j29343216566653_2_alg».proof.Proof.Gen.Pre_finite_inputs
import proofs.«175962_j29343216566653_2_alg».proof.Proof.KernelValue
import proofs.«175962_j29343216566653_2_alg».proof.Proof.RefValue
import Idealize.ShloMosaic.Adequacy
import Idealize.ShloMosaic.Init

set_option maxRecDepth 16384

noncomputable section

namespace Cert.Proof

open Idealize.ShloMosaic Idealize.SL.Sem
open Cert.KernelIdeal.Glue Cert.KernelIdeal.Results Cert.ReferenceIdeal.RefValue

/-- The kernel program, word level: runs, faults nowhere, arguments as launched. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The idealized reference: its run, the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the per-edge messages at edgesOf of the arguments and
    the node embeddings at nodesOf of them: the kernel program by its regions' result arrays read back through the host
    stretches, the reference by its two stages each being the perceptron over pieces. -/
theorem algebraic : Cert.algebraic_KernelIdeal_ReferenceIdeal := by
  intro m ρ m' ρ' _ hagree
  refine ⟨fun c => edgesOf (argX m c) (argEI m c) (argEA m c) (argWe1 m c) (argBe1 m c) (argWe2 m c) (argBe2 m c),
    fun c => nodesOf (argX m c) (argEI m c)
      (edgesOf (argX m c) (argEI m c) (argEA m c) (argWe1 m c) (argBe1 m c) (argWe2 m c) (argBe2 m c))
      (argWn1 m c) (argBn1 m c) (argWn2 m c) (argBn2 m c),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, -⟩ := hagree c
    rw [e0, e1, e2, e3, e4, e5, e6]
    exact edgesRef_eq (rowsAt (argX m c) (wrapped (sources (argEI m c)))) (rowsAt (argX m c) (wrapped (targets (argEI m c))))
      (argEA m c) (argWe1 m c) (argBe1 m c) (argWe2 m c) (argBe2 m c)
  · obtain ⟨e0, e1, e2, e3, e4, e5, e6, e7, e8, e9, e10⟩ := hagree c
    rw [e0, e1, e2, e3, e4, e5, e6, e7, e8, e9, e10]
    refine Eq.trans (show _ = nodesRef (argX m c) (segmentSum (sources (argEI m c))
        (edgesRef (rowsAt (argX m c) (wrapped (sources (argEI m c)))) (rowsAt (argX m c) (wrapped (targets (argEI m c))))
          (argEA m c) (argWe1 m c) (argBe1 m c) (argWe2 m c) (argBe2 m c)))
        (argWn1 m c) (argBn1 m c) (argWn2 m c) (argBn2 m c) from rfl) ?_
    rw [edgesRef_eq]
    exact nodesRef_eq (argX m c) _ (argWn1 m c) (argBn1 m c) (argWn2 m c) (argBn2 m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
